-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel

variable [Facts]

def fn {F : FTy → Type} [FloatOps F] (main_arg0 : FVec F S2048x128 .f32) (main_arg1 : IVec S2048x128 32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  main_v3
-- ==== Kernel.lean ====
abbrev S2048x128 : Shape := ⟨2, ![2048, 128]⟩
abbrev S1x1 : Shape := ⟨2, ![1, 1]⟩
abbrev S64x128 : Shape := ⟨2, ![64, 128]⟩
abbrev S64x128x1 : Shape := ⟨3, ![64, 128, 1]⟩
abbrev S64x1x128 : Shape := ⟨3, ![64, 1, 128]⟩
abbrev S64x128x128 : Shape := ⟨3, ![64, 128, 128]⟩
abbrev S64 : Shape := ⟨1, ![64]⟩
abbrev S1x64 : Shape := ⟨2, ![1, 64]⟩
abbrev S1 : Shape := ⟨1, ![1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S2048x128, .i32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S64x128, .f32⟩
  | .local _ .vmem, ⟨1, _⟩ => ⟨S64x128, .f32⟩
  | .local _ .vmem, ⟨2, _⟩ => ⟨S64x128, .i32⟩
  | .local _ .vmem, ⟨3, _⟩ => ⟨S64x128, .i32⟩
  | .local _ .vmem, ⟨4, _⟩ => ⟨S1x1, .f32⟩
  | .local _ .vmem, ⟨5, _⟩ => ⟨S1x1, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S64x128_S64x128_0_0 : ∀ a, (![0, 0] : Fin 2 → Nat) a + S64x128.size a ≤ S64x128.size a
  h_S64x128 : 0 < S64x128.numel
  natLt_1_32 : 1 < 32
  shapeCasts_S64x128_S64x128x1 : S64x128.ShapeCasts S64x128x1
  shapeCasts_S64x128_S64x1x128 : S64x128.ShapeCasts S64x1x128
  broadcasts_S64x128x1_S64x128x128 : S64x128x1.Broadcasts S64x128x128
  broadcasts_S64x1x128_S64x128x128 : S64x1x128.Broadcasts S64x128x128
  reduces_S64x128x128_S64x128 : S64x128x128.Reduces [2] S64x128
  reduces_S64x128_S64 : S64x128.Reduces [1] S64
  shapeCasts_S64_S1x64 : S64.ShapeCasts S1x64
  reduces_S1x64_S1 : S1x64.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S2048x128.size a
  hwx0_0 : ∀ i : grid0.Coords, EltTy.bits .f32 = 32 ∨ (Rect.block (s := S2048x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S2048x128.size a
  hwx0_1 : ∀ i : grid0.Coords, EltTy.bits .i32 = 32 ∨ (Rect.block (s := S2048x128) S64x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x128 : Shape := ⟨2, ![2048, 128]⟩
abbrev S_ : Shape := ⟨0, ![]⟩
abbrev S2048x128x1 : Shape := ⟨3, ![2048, 128, 1]⟩
abbrev S2048x1x128 : Shape := ⟨3, ![2048, 1, 128]⟩
abbrev S2048x128x128 : Shape := ⟨3, ![2048, 128, 128]⟩

abbrev nBuf : Space → Nat
  | .hbm => 33
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .i32⟩
  | .hbm, ⟨2, _⟩ => ⟨S_, .i32⟩
  | .hbm, ⟨3, _⟩ => ⟨S2048x128, .i32⟩
  | .hbm, ⟨4, _⟩ => ⟨S2048x128, .i1⟩
  | .hbm, ⟨5, _⟩ => ⟨S_, .i32⟩
  | .hbm, ⟨6, _⟩ => ⟨S2048x128, .i32⟩
  | .hbm, ⟨7, _⟩ => ⟨S2048x128, .i1⟩
  | .hbm, ⟨8, _⟩ => ⟨S2048x128x1, .i1⟩
  | .hbm, ⟨9, _⟩ => ⟨S2048x1x128, .i1⟩
  | .hbm, ⟨10, _⟩ => ⟨S2048x128x128, .i1⟩
  | .hbm, ⟨11, _⟩ => ⟨S2048x128x128, .i1⟩
  | .hbm, ⟨12, _⟩ => ⟨S2048x128x128, .i1⟩
  | .hbm, ⟨13, _⟩ => ⟨S2048x128x128, .f32⟩
  | .hbm, ⟨14, _⟩ => ⟨S2048x128x1, .f32⟩
  | .hbm, ⟨15, _⟩ => ⟨S2048x1x128, .f32⟩
  | .hbm, ⟨16, _⟩ => ⟨S2048x128x128, .f32⟩
  | .hbm, ⟨17, _⟩ => ⟨S2048x128x128, .f32⟩
  | .hbm, ⟨18, _⟩ => ⟨S2048x128x128, .f32⟩
  | .hbm, ⟨19, _⟩ => ⟨S_, .f32⟩
  | .hbm, ⟨20, _⟩ => ⟨S2048x128x128, .f32⟩
  | .hbm, ⟨21, _⟩ => ⟨S2048x128x128, .f32⟩
  | .hbm, ⟨22, _⟩ => ⟨S_, .f32⟩
  | .hbm, ⟨23, _⟩ => ⟨S2048x128x128, .f32⟩
  | .hbm, ⟨24, _⟩ => ⟨S2048x128x128, .f32⟩
  | .hbm, ⟨25, _⟩ => ⟨S2048x128x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S2048x128 : S_.BroadcastsInDim S2048x128 (![] : Fin 0 → Fin S2048x128.rank)
  bcast_S2048x128_S2048x128x1_0_1 : S2048x128.BroadcastsInDim S2048x128x1 (![0, 1] : Fin 2 → Fin S2048x128x1.rank)
  bcast_S2048x128_S2048x1x128_0_2 : S2048x128.BroadcastsInDim S2048x1x128 (![0, 2] : Fin 2 → Fin S2048x1x128.rank)
  bcast_S2048x128x1_S2048x128x128_0_1_2 : S2048x128x1.BroadcastsInDim S2048x128x128 (![0, 1, 2] : Fin 3 → Fin S2048x128x128.rank)
  bcast_S2048x1x128_S2048x128x128_0_1_2 : S2048x1x128.BroadcastsInDim S2048x128x128 (![0, 1, 2] : Fin 3 → Fin S2048x128x128.rank)
  bcast_S_S2048x128x128 : S_.BroadcastsInDim S2048x128x128 (![] : Fin 0 → Fin S2048x128x128.rank)
  reducesTo_S2048x128x128_S_d0_1_2 : S2048x128x128.ReducesTo [0, 1, 2] S_
  h_S_ : 0 < S_.numel

variable [Facts₀]

class Facts : Prop extends Facts₀ where

variable [Facts]
-- ==== Proof.PairSpec.lean ====
/-
  The pairwise hinge loss as ONE function of the score array s[2048,128] and the relevance array r[2048,128],
  over the extended reals:

      loss s r = (Σ_B Σ_i Σ_j hinge(s[B,i], s[B,j]) · mask(r[B,i], r[B,j])) / (Σ_B Σ_i Σ_j mask(r[B,i], r[B,j]) + ε)

  with hinge(a, b) = max(1/2 − (a − b), 0) and mask(p, q) = [p = 1]·[q = 0].  The float words 1/2, 0 and ε stay
  as words: the same word stands on both sides of every equation here and is never evaluated, except the zero
  word, which is the extended real 0.

  Three facts about it, none of which needs a finite input (only that + on the extended reals is commutative and
  associative with unit 0):
    · the mask as a product of two 0/1 factors is the mask as the conjunction of two bits read unsigned;
    · a sum over all 2048 rows is the sum over 32 tiles of the sum over a tile's 64 rows (row 64·t + b);
    · adding the tiles one after another from 0 gives the sum over the tiles.
-/
import Idealize.ShloMosaic.PureOps.Ideal
import Idealize.ShloMosaic.PureOps.Ideal.Laws
import Idealize.ShloMosaic.Lib.ValueIdx

noncomputable section

open scoped BigOperators

namespace PairHinge

open Idealize.ShloMosaic Idealize.ShloMosaic.ValueIdx

/-! ## One pair -/

/-- [p = 1] as a float: the comparison bit widened to 32 bits and read signed. -/
def relF (p : BitVec 32) : EReal := FloatOps.sitofp (F := Ideal) .f32 ((IntOp.cmpi .eq p 1#32).setWidth 32)
/-- [q = 0] as a float. -/
def irrF (q : BitVec 32) : EReal := FloatOps.sitofp (F := Ideal) .f32 ((IntOp.cmpi .eq q 0#32).setWidth 32)
/-- mask(p, q) = [p = 1]·[q = 0]. -/
def mask (p q : BitVec 32) : EReal := relF p * irrF q
/-- hinge(a, b) = max(1/2 − (a − b), 0). -/
def hinge (a b : EReal) : EReal :=
  max (Ideal.ofBits .f32 0x3F000000#32 - (a - b)) (Ideal.ofBits .f32 0x00000000#32)

/-- A one-bit word is 0 or 1. -/
theorem bit_cases (x : BitVec 1) : x = 0#1 ∨ x = 1#1 := by
  by_cases h : x = 1#1
  · exact Or.inr h
  · exact Or.inl (eq_zero_of_ne_one h)

/-- The conjunction of two bits read unsigned is the product of the two bits, each widened and read signed:
    both are 1 when both bits are set and 0 otherwise. -/
theorem bits_and_eq_mul (x y : BitVec 1) :
    FloatOps.uitofp (F := Ideal) .f32 (IntOp.andi x y)
      = FloatOps.sitofp (F := Ideal) .f32 (x.setWidth 32) * FloatOps.sitofp (F := Ideal) .f32 (y.setWidth 32) := by
  show (((IntOp.andi x y).toNat : ℝ) : EReal) = (((x.setWidth 32).toInt : ℝ) : EReal) * (((y.setWidth 32).toInt : ℝ) : EReal)
  rcases bit_cases x with rfl | rfl <;> rcases bit_cases y with rfl | rfl <;>
    simp [IntOp.andi]

/-- So the mask is the float of the conjunction of the two comparison bits. -/
theorem mask_eq_and (p q : BitVec 32) :
    FloatOps.uitofp (F := Ideal) .f32 (IntOp.andi (IntOp.cmpi .eq p 1#32) (IntOp.cmpi .eq q 0#32)) = mask p q :=
  bits_and_eq_mul _ _

/-! ## Sums over the indices of a rank-3 array, over the rows of the tiles, and one tile after another -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `b` of tile `t`: row 64·t + b of the array. -/
def row (t : Fin 32) (b : Fin 64) : Fin 2048 :=
  ⟨64 * t.val + b.val, by have := t.isLt; have := b.isLt; omega⟩

/-- Every row is exactly one row of exactly one tile: the sum over the tiles of the sums over a tile's rows is
    the sum over all rows. -/
theorem sum_rows {M : Type*} [AddCommMonoid M] (g : Fin 2048 → M) :
    ∑ t : Fin 32, ∑ b : Fin 64, g (row t b) = ∑ B : Fin 2048, g B := by
  refine (Fintype.sum_prod_type (fun p : Fin 32 × Fin 64 => g (row p.1 p.2))).symm.trans ?_
  refine Fintype.sum_equiv (finProdFinEquiv (m := 32) (n := 64)) _ _ fun p => ?_
  refine congrArg g (Fin.ext ?_)
  show 64 * p.1.val + p.2.val = p.2.val + 64 * p.1.val
  omega

/-- A function on the 32 tiles, continued by 0 past the last. -/
def past {M : Type*} [Zero M] (f : Fin 32 → M) (n : ℕ) : M := if h : n < 32 then f ⟨n, h⟩ else 0

theorem past_of_lt {M : Type*} [Zero M] (f : Fin 32 → M) (n : ℕ) (h : n < 32) : past f n = f ⟨n, h⟩ := dif_pos h

/-- The sum over tiles 0 … n. -/
def upTo {M : Type*} [AddCommMonoid M] (f : Fin 32 → M) (n : ℕ) : M := ∑ k ∈ Finset.range (n + 1), past f k

theorem upTo_zero {M : Type*} [AddCommMonoid M] (f : Fin 32 → M) : upTo f 0 = f 0 := by
  unfold upTo
  rw [Finset.sum_range_one]
  exact past_of_lt f 0 (by decide)

theorem upTo_succ {M : Type*} [AddCommMonoid M] (f : Fin 32 → M) (n : ℕ) (h : n + 1 < 32) :
    upTo f (n + 1) = upTo f n + f ⟨n + 1, h⟩ := by
  unfold upTo
  rw [Finset.sum_range_succ _ (n + 1), past_of_lt f (n + 1) h]

theorem upTo_last {M : Type*} [AddCommMonoid M] (f : Fin 32 → M) : upTo f 31 = ∑ t : Fin 32, f t := by
  show ∑ k ∈ Finset.range 32, past f k = _
  rw [Finset.sum_range]
  exact Finset.sum_congr rfl fun t _ => past_of_lt f t.val t.isLt

/-! ## The two totals and the loss -/

section Totals

variable (s : (⟨2, ![2048, 128]⟩ : Shape).Idx → EReal) (r : (⟨2, ![2048, 128]⟩ : Shape).Idx → BitVec 32)

/-- Row `B`'s hinge sum: over the pairs (i, j) of its documents. -/
def rowHinge (B : Fin 2048) : EReal :=
  ∑ i : Fin 128, ∑ j : Fin 128, hinge (s (ix2 B i)) (s (ix2 B j)) * mask (r (ix2 B i)) (r (ix2 B j))
/-- Row `B`'s number of (relevant, irrelevant) pairs. -/
def rowCount (B : Fin 2048) : EReal :=
  ∑ i : Fin 128, ∑ j : Fin 128, mask (r (ix2 B i)) (r (ix2 B j))

def hingeTotal : EReal := ∑ B : Fin 2048, rowHinge s r B
def countTotal : EReal := ∑ B : Fin 2048, rowCount r B

/-- One tile's share of each total. -/
def tileHinge (t : Fin 32) : EReal := ∑ b : Fin 64, rowHinge s r (row t b)
def tileCount (t : Fin 32) : EReal := ∑ b : Fin 64, rowCount r (row t b)

theorem sum_tileHinge : ∑ t : Fin 32, tileHinge s r t = hingeTotal s r := sum_rows (rowHinge s r)
theorem sum_tileCount : ∑ t : Fin 32, tileCount r t = countTotal r := sum_rows (rowCount r)

/-- The loss, as the contents of a rank-0 array. -/
def loss : (⟨0, ![]⟩ : Shape).Idx → EReal :=
  fun _ => Ideal.div (hingeTotal s r) (countTotal r + Ideal.ofBits .f32 0x358637BD#32)

end Totals

/-! ## One tile, as a [64,128] block -/

/-- Tile `t` of an array: its rows 64·t … 64·t + 63. -/
def tileOf {α : Type} (a : (⟨2, ![2048, 128]⟩ : Shape).Idx → α) (t : Fin 32) : (⟨2, ![64, 128]⟩ : Shape).Idx → α :=
  fun y => a (ix2 (row t (y 0)) (y 1))

/-- The hinge sum of a [64,128] block of scores and relevances. -/
def blockHinge (x : (⟨2, ![64, 128]⟩ : Shape).Idx → EReal) (q : (⟨2, ![64, 128]⟩ : Shape).Idx → BitVec 32) : EReal :=
  ∑ b : Fin 64, ∑ i : Fin 128, ∑ j : Fin 128, hinge (x (ix2 b i)) (x (ix2 b j)) * mask (q (ix2 b i)) (q (ix2 b j))
/-- Its pair count. -/
def blockCount (q : (⟨2, ![64, 128]⟩ : Shape).Idx → BitVec 32) : EReal :=
  ∑ b : Fin 64, ∑ i : Fin 128, ∑ j : Fin 128, mask (q (ix2 b i)) (q (ix2 b j))

theorem blockHinge_tileOf (s : (⟨2, ![2048, 128]⟩ : Shape).Idx → EReal) (r : (⟨2, ![2048, 128]⟩ : Shape).Idx → BitVec 32)
    (t : Fin 32) : blockHinge (tileOf s t) (tileOf r t) = tileHinge s r t := rfl
theorem blockCount_tileOf (r : (⟨2, ![2048, 128]⟩ : Shape).Idx → BitVec 32) (t : Fin 32) :
    blockCount (tileOf r t) = tileCount r t := rfl

end PairHinge

end
-- ==== Proof.RefLoss.lean ====
/-
  The reference computes `PairHinge.loss`.

  Its program builds the [2048,128,128] arrays of all pairs by broadcasts: the mask as the conjunction of the two
  comparison bits read unsigned, the hinge as max(1/2 − (s[B,i] − s[B,j]), 0); it sums each array over all three
  axes from 0 and divides.  Read at an index (B, i, j) every broadcast lands on (B, i) or on (B, j) of an argument,
  so each of its two sums is, term by term, the triple sum of the specification.
-/
import proofs.«168749_j84688165143168_2_alg».proof.Proof.Gen.ReferenceIdeal.Read
import proofs.«168749_j84688165143168_2_alg».proof.Proof.PairSpec

noncomputable section

open scoped BigOperators

namespace Cert.ReferenceIdeal.RefValue

open Cert.ReferenceIdeal Cert.ReferenceIdeal.Read Idealize.ShloMosaic Idealize.ShloMosaic.ValueIdx PairHinge

variable (x0 : (⟨S2048x128, .f32⟩ : BufTy).Contents (Elt Ideal)) (x1 : (⟨S2048x128, .i32⟩ : BufTy).Contents (Elt Ideal))

/-- Where the broadcasts of the FIRST document of a pair read their [2048,128] operand: at (B, i). -/
theorem first_idx (B : Fin 2048) (i j : Fin 128) : idx_main_v4 (idx_main_v6 (ix3 B i j)) = ix2 B i :=
  funext fun a => by match a with | ⟨0, _⟩ => rfl | ⟨1, _⟩ => rfl
/-- Where the broadcasts of the SECOND document read it: at (B, j). -/
theorem second_idx (B : Fin 2048) (i j : Fin 128) : idx_main_v5 (idx_main_v7 (ix3 B i j)) = ix2 B j :=
  funext fun a => by match a with | ⟨0, _⟩ => rfl | ⟨1, _⟩ => rfl
theorem first_idx_f (B : Fin 2048) (i j : Fin 128) : idx_main_v10 (idx_main_v12 (ix3 B i j)) = ix2 B i :=
  funext fun a => by match a with | ⟨0, _⟩ => rfl | ⟨1, _⟩ => rfl
theorem second_idx_f (B : Fin 2048) (i j : Fin 128) : idx_main_v11 (idx_main_v13 (ix3 B i j)) = ix2 B j :=
  funext fun a => by match a with | ⟨0, _⟩ => rfl | ⟨1, _⟩ => rfl

/-- The pair mask at (B, i, j). -/
theorem mask_at (B : Fin 2048) (i j : Fin 128) :
    val_main_v9 (F := Ideal) x1 (ix3 B i j) = mask (x1 (ix2 B i)) (x1 (ix2 B j)) := by
  rw [val_main_v9_apply, val_main_v8_apply, val_main_v6_apply, val_main_v4_apply, val_main_v1_apply, val_main_v0_apply,
    val_main_c_apply, val_main_v7_apply, val_main_v5_apply, val_main_v3_apply, val_main_v2_apply, val_main_c_0_apply,
    first_idx, second_idx]
  exact mask_eq_and _ _

/-- The hinge at (B, i, j). -/
theorem hinge_at (B : Fin 2048) (i j : Fin 128) :
    val_main_v18 (F := Ideal) x0 (ix3 B i j) = hinge (x0 (ix2 B i)) (x0 (ix2 B j)) := by
  rw [val_main_v18_apply, val_main_v16_apply, val_main_v15_apply, val_main_cst_apply, val_main_v14_apply,
    val_main_v12_apply, val_main_v10_apply, val_main_v13_apply, val_main_v11_apply, val_main_v17_apply,
    val_main_cst_1_apply, first_idx_f, second_idx_f]
  rfl

/-- The reference's result is the loss of its two arguments. -/
theorem result_eq : val_main_v23 (F := Ideal) x0 x1 = loss x0 x1 := by
  funext i
  rw [val_main_v23_apply, val_main_v21_apply, val_main_v22_apply, val_main_v20_apply, val_main_cst_3_apply,
    val_main_cst_2_apply, val_main_cst_4_apply, sum_idx3, sum_idx3]
  simp only [val_main_v19_apply, hinge_at, mask_at, Ideal.ofBits_def, Ideal.ofBits_zero_f32, zero_add, Ideal.mulf_def,
    Ideal.addf_def, Ideal.hostDivf_def]
  rfl

end Cert.ReferenceIdeal.RefValue

end
-- ==== Proof.KernelPieces.lean ====
/-
  What one run of the body leaves in the two 1×1 accumulators, for any float values.

  At the first grid point the body stores the zero block into each accumulator, reads it back and stores
  0 + (the tile's scalar); at every later point it reads the carried contents acc and stores acc + (the tile's
  scalar).  The scalar for the first accumulator is computed from the tile's scores and relevances, the one for the
  second from its relevances alone; each is spread over the 1×1 block before the addition.
-/
import proofs.«168749_j84688165143168_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The zero block the first point stores. -/
abbrev zero : Vec F S1x1 .f32 := broadcast S1x1 (Scalar.ofBits .f32 0x00000000#32)

/-- A later point leaves acc + (the tile's hinge scalar) in the first accumulator. -/
theorem later_hinge (c : Dev nD) (i : grid0.Coords) (a1 : Memref sig .tc .vmem S64x128 .f32) (h1 : a1.IsWhole)
    (a2 : Memref sig .tc .vmem S64x128 .i32) (h2 : a2.IsWhole) (a3 : Memref sig .tc .vmem S1x1 .f32) (h3 : a3.IsWhole)
    (a4 : Memref sig .tc .vmem S1x1 .f32) (h4 : a4.IsWhole) (hc : ¬cond0_0 i)
    (x0 : Vec F S64x128 .f32) (x1 : Vec F S64x128 .i32) (xo2 xo3 : Vec F S1x1 .f32) :
    out0_B_2 c i a1 h1 a2 h2 a3 h3 a4 h4 hc x0 x1 xo2 xo3 = addf xo2 (broadcast S1x1 (k0_pay6 x0 x1)) := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  unfold k0_pay1
  simp only [View.readAt_eq_ld, h1.read_unread, h2.read_unread, h3.read_unread, View.ld_unit_zero (S := S64x128) hz,
    View.ld_unit_zero (S := S1x1) hz, shapeCast_self]

/-- A later point leaves acc + (the tile's pair count) in the second accumulator. -/
theorem later_count (c : Dev nD) (i : grid0.Coords) (a1 : Memref sig .tc .vmem S64x128 .f32) (h1 : a1.IsWhole)
    (a2 : Memref sig .tc .vmem S64x128 .i32) (h2 : a2.IsWhole) (a3 : Memref sig .tc .vmem S1x1 .f32) (h3 : a3.IsWhole)
    (a4 : Memref sig .tc .vmem S1x1 .f32) (h4 : a4.IsWhole) (hc : ¬cond0_0 i)
    (x0 : Vec F S64x128 .f32) (x1 : Vec F S64x128 .i32) (xo2 xo3 : Vec F S1x1 .f32) :
    out0_B_3 c i a1 h1 a2 h2 a3 h3 a4 h4 hc x0 x1 xo2 xo3 = addf xo3 (broadcast S1x1 (k0_pay7 x1)) := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  unfold k0_pay2
  simp only [View.readAt_eq_ld, h2.read_unread, h4.read_unread, View.ld_unit_zero (S := S64x128) hz,
    View.ld_unit_zero (S := S1x1) hz, shapeCast_self]

/-- The first point leaves 0 + (the tile's hinge scalar) in the first accumulator. -/
theorem first_hinge (c : Dev nD) (i : grid0.Coords) (a1 : Memref sig .tc .vmem S64x128 .f32) (h1 : a1.IsWhole)
    (a2 : Memref sig .tc .vmem S64x128 .i32) (h2 : a2.IsWhole) (a3 : Memref sig .tc .vmem S1x1 .f32) (h3 : a3.IsWhole)
    (a4 : Memref sig .tc .vmem S1x1 .f32) (h4 : a4.IsWhole) (hc : cond0_0 i)
    (x0 : Vec F S64x128 .f32) (x1 : Vec F S64x128 .i32) :
    out0_A_2 c i a1 h1 a2 h2 a3 h3 a4 h4 hc x0 x1 = addf zero (broadcast S1x1 (k0_pay6 x0 x1)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) hz, View.readCov_unit_zero (S := S1x1) _ hz]
  unfold k0_pay1 k0_pay3
  simp only [View.readAt_eq_ld, h1.read_unread, h2.read_unread, View.ld_unit_zero (S := S64x128) hz, shapeCast_self]

/-- The first point leaves 0 + (the tile's pair count) in the second accumulator. -/
theorem first_count (c : Dev nD) (i : grid0.Coords) (a1 : Memref sig .tc .vmem S64x128 .f32) (h1 : a1.IsWhole)
    (a2 : Memref sig .tc .vmem S64x128 .i32) (h2 : a2.IsWhole) (a3 : Memref sig .tc .vmem S1x1 .f32) (h3 : a3.IsWhole)
    (a4 : Memref sig .tc .vmem S1x1 .f32) (h4 : a4.IsWhole) (hc : cond0_0 i)
    (x0 : Vec F S64x128 .f32) (x1 : Vec F S64x128 .i32) :
    out0_A_3 c i a1 h1 a2 h2 a3 h3 a4 h4 hc x0 x1 = addf zero (broadcast S1x1 (k0_pay7 x1)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz, View.readCov_unit_zero (S := S1x1) _ hz]
  unfold k0_pay2 k0_pay4
  simp only [View.readAt_eq_ld, h2.read_unread, View.ld_unit_zero (S := S64x128) hz, shapeCast_self]

end Cert.KernelIdeal.Pieces

end
-- ==== Proof.KernelTile.lean ====
/-
  What the kernel's body computes from ONE tile — a [64,128] block x of scores and a [64,128] block q of
  relevances — read at the extended reals.

  The body forms the [64,128,128] array of all pairs of a row's documents: the block viewed as [64,128,1] and
  repeated along a new last axis reads (b, i, j) at (b, i); viewed as [64,1,128] and repeated along the middle axis
  it reads (b, j).  So its mask array holds mask(q[b,i], q[b,j]) and its product array hinge(x[b,i], x[b,j]) times
  that.  Each array is then summed over its last axis, over the middle axis, and — the [64] result viewed as
  [1,64] — over the rows, and the one remaining entry is read: the triple sum over (b, i, j), every partial sum
  started from the zero word, which is 0.
-/
import proofs.«168749_j84688165143168_2_alg».proof.Proof.Gen.KernelIdeal.Skeleton
import proofs.«168749_j84688165143168_2_alg».proof.Proof.PairSpec
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx PairHinge

/-! ## The two repetitions of a block, read at (b, i, j) -/

section Layout
variable {α : Type}

/-- Viewed as [64,128,1] and repeated along the last axis, a block reads (b, i, j) at (b, i). -/
theorem rep_last (v : S64x128.Idx → α) (hc : S64x128.ShapeCasts S64x128x1) (hb : S64x128x1.Broadcasts S64x128x128)
    (b : Fin 64) (i j : Fin 128) :
    broadcastTo S64x128x128 (shapeCast S64x128x1 v hc) hb (ix3 b i j) = v (ix2 b i) := by
  refine (broadcastTo_apply _ hb (ix3 b i j) (ix3 b i (0 : Fin 1)) fun a => ?_).trans ?_
  · match a with
    | ⟨0, _⟩ => rfl
    | ⟨1, _⟩ => rfl
    | ⟨2, _⟩ => rfl
  · refine shapeCast_apply v hc _ (ix2 b i) ?_
    rw [Shape.rowMajor_val_two, Shape.rowMajor_val_three]
    show b.val * 128 + i.val = (b.val * 128 + i.val) * 1 + 0
    omega

/-- Viewed as [64,1,128] and repeated along the middle axis, it reads (b, i, j) at (b, j). -/
theorem rep_mid (v : S64x128.Idx → α) (hc : S64x128.ShapeCasts S64x1x128) (hb : S64x1x128.Broadcasts S64x128x128)
    (b : Fin 64) (i j : Fin 128) :
    broadcastTo S64x128x128 (shapeCast S64x1x128 v hc) hb (ix3 b i j) = v (ix2 b j) := by
  refine (broadcastTo_apply _ hb (ix3 b i j) (ix3 b (0 : Fin 1) j) fun a => ?_).trans ?_
  · match a with
    | ⟨0, _⟩ => rfl
    | ⟨1, _⟩ => rfl
    | ⟨2, _⟩ => rfl
  · refine shapeCast_apply v hc _ (ix2 b j) ?_
    rw [Shape.rowMajor_val_two, Shape.rowMajor_val_three]
    show b.val * 128 + j.val = (b.val * 1 + 0) * 128 + j.val
    omega

end Layout

/-! ## The mask array and the product array at (b, i, j) -/

variable (x : Vec Ideal S64x128 .f32) (q : Vec Ideal S64x128 .i32)

/-- The body's mask array holds mask(q[b,i], q[b,j]). -/
theorem maskArr_at (b : Fin 64) (i j : Fin 128) :
    k0_pay5 (F := Ideal) q (ix3 b i j) = mask (q (ix2 b i)) (q (ix2 b j)) := by
  have e : k0_pay5 (F := Ideal) q (ix3 b i j)
      = broadcastTo S64x128x128 (shapeCast S64x128x1
            (sitofp .f32 (extui 32 (cmpi .eq q (broadcast S64x128 1#32)) natLt_1_32) : FVec Ideal S64x128 .f32)
            shapeCasts_S64x128_S64x128x1) broadcasts_S64x128x1_S64x128x128 (ix3 b i j)
        * broadcastTo S64x128x128 (shapeCast S64x1x128
            (sitofp .f32 (extui 32 (cmpi .eq q (broadcast S64x128 0#32)) natLt_1_32) : FVec Ideal S64x128 .f32)
            shapeCasts_S64x128_S64x1x128) broadcasts_S64x1x128_S64x128x128 (ix3 b i j) := rfl
  rw [e, rep_last, rep_mid]
  rfl

/-- The body's array of hinge times mask. -/
def prodArr : FVec Ideal S64x128x128 .f32 :=
  mulf (maximumf
      (subf (broadcast S64x128x128 (Scalar.ofBits .f32 0x3F000000#32))
        (subf (broadcastTo S64x128x128 (shapeCast S64x128x1 x shapeCasts_S64x128_S64x128x1) broadcasts_S64x128x1_S64x128x128)
          (broadcastTo S64x128x128 (shapeCast S64x1x128 x shapeCasts_S64x128_S64x1x128) broadcasts_S64x1x128_S64x128x128)))
      (broadcast S64x128x128 (Scalar.ofBits .f32 0x00000000#32)))
    (k0_pay5 q)

/-- It holds hinge(x[b,i], x[b,j]) · mask(q[b,i], q[b,j]). -/
theorem prodArr_at (b : Fin 64) (i j : Fin 128) :
    prodArr x q (ix3 b i j) = hinge (x (ix2 b i)) (x (ix2 b j)) * mask (q (ix2 b i)) (q (ix2 b j)) := by
  have e : prodArr x q (ix3 b i j)
      = max (Ideal.ofBits .f32 0x3F000000#32
          - (broadcastTo S64x128x128 (shapeCast S64x128x1 x shapeCasts_S64x128_S64x128x1) broadcasts_S64x128x1_S64x128x128 (ix3 b i j)
            - broadcastTo S64x128x128 (shapeCast S64x1x128 x shapeCasts_S64x128_S64x1x128) broadcasts_S64x1x128_S64x128x128 (ix3 b i j)))
          (Ideal.ofBits .f32 0x00000000#32)
        * k0_pay5 (F := Ideal) q (ix3 b i j) := rfl
  rw [e, rep_last, rep_mid, maskArr_at]
  rfl

/-! ## The three sums -/

/-- The index a sum over the last axis of a [64,128,128] array adds at (b, i): (b, i, j). -/
theorem lift_last (h : S64x128x128.Reduces [2] S64x128) (b : Fin 64) (i j : Fin 128) :
    h.lift (ix2 b i) j = ix3 b i j :=
  funext fun a => Fin.ext (by match a with | ⟨0, _⟩ => rfl | ⟨1, _⟩ => rfl | ⟨2, _⟩ => rfl)
/-- The index a sum over the last axis of a [64,128] array adds at b: (b, i). -/
theorem lift_mid (h : S64x128.Reduces [1] S64) (b : Fin 64) (i : Fin 128) : h.lift (ix1 b) i = ix2 b i :=
  funext fun a => Fin.ext (by match a with | ⟨0, _⟩ => rfl | ⟨1, _⟩ => rfl)
/-- The index a sum over the rows of a [1,64] array adds: (0, b). -/
theorem lift_row (h : S1x64.Reduces [1] S1) (b : Fin 64) : h.lift (ix1 (0 : Fin 1)) b = ix2 (0 : Fin 1) b :=
  funext fun a => Fin.ext (by match a with | ⟨0, _⟩ => rfl | ⟨1, _⟩ => rfl)

/-- A [64,128,128] array summed over its last axis, then its middle axis, then — the [64] result viewed as [1,64] —
    over the rows, and the one entry of the [1] result (viewed as [1,1]) read: the sum over all (b, i, j). -/
theorem sum_all (w : FVec Ideal S64x128x128 .f32) (h2 : S64x128x128.Reduces [2] S64x128) (h1 : S64x128.Reduces [1] S64)
    (hc : S64.ShapeCasts S1x64) (h0 : S1x64.Reduces [1] S1) (hc' : S1.ShapeCasts S1x1) (hp : ∀ a, (![0, 0] : Fin 2 → Nat) a < S1x1.size a)
    (hφ : FKind.Formats .f32) (hacc : (0x00000000#32 : BitVec 32) = FKind.add.neutral .f32 hφ) :
    extractAt ![0, 0] (shapeCast S1x1 (multiReduction .add [1] S1 (shapeCast S1x64
        (multiReduction .add [1] S64 (multiReduction .add [2] S64x128 w 0x00000000#32 h2 hφ hacc) 0x00000000#32 h1 hφ hacc)
        hc) 0x00000000#32 h0 hφ hacc) hc') hp
      = ∑ b : Fin 64, ∑ i : Fin 128, ∑ j : Fin 128, w (ix3 b i j) := by
  unfold extractAt
  refine (shapeCast_apply _ hc' _ (ix1 (0 : Fin 1)) (by rw [Shape.rowMajor_val_one, Shape.rowMajor_val_two]; rfl)).trans ?_
  rw [Ideal.multiReduction_add_single]
  show ∑ b : Fin 64, _ = _
  refine Finset.sum_congr rfl fun b _ => ?_
  rw [lift_row]
  refine (shapeCast_apply _ hc _ (ix1 b) (by rw [Shape.rowMajor_val_one, Shape.rowMajor_val_two]; show b.val = 0 * 64 + b.val; omega)).trans ?_
  rw [Ideal.multiReduction_add_single]
  show ∑ i : Fin 128, _ = _
  refine Finset.sum_congr rfl fun i _ => ?_
  rw [lift_mid, Ideal.multiReduction_add_single]
  show ∑ j : Fin 128, _ = _
  refine Finset.sum_congr rfl fun j _ => ?_
  rw [lift_last]

/-! ## The body's two scalars -/

/-- The scalar the body adds to the hinge accumulator is the block's hinge sum. -/
theorem hingeScalar_eq : k0_pay6 (F := Ideal) x q = blockHinge x q := by
  have e : k0_pay6 (F := Ideal) x q
      = extractAt ![0, 0] (shapeCast S1x1 (multiReduction .add [1] S1 (shapeCast S1x64
          (multiReduction .add [1] S64 (multiReduction .add [2] S64x128 (prodArr x q) 0x00000000#32
            reduces_S64x128x128_S64x128 (.inl rfl) rfl) 0x00000000#32 reduces_S64x128_S64 (.inl rfl) rfl)
          shapeCasts_S64_S1x64) 0x00000000#32 reduces_S1x64_S1 (.inl rfl) rfl) shapeCasts_S1_S1x1) inpos_S1x1_p0_0 := rfl
  rw [e]
  refine (sum_all (prodArr x q) reduces_S64x128x128_S64x128 reduces_S64x128_S64 shapeCasts_S64_S1x64 reduces_S1x64_S1
    shapeCasts_S1_S1x1 inpos_S1x1_p0_0 (.inl rfl) rfl).trans ?_
  exact Finset.sum_congr rfl fun b _ => Finset.sum_congr rfl fun i _ => Finset.sum_congr rfl fun j _ => prodArr_at x q b i j

/-- The scalar it adds to the count accumulator is the block's pair count. -/
theorem countScalar_eq : k0_pay7 (F := Ideal) q = blockCount q := by
  have e : k0_pay7 (F := Ideal) q
      = extractAt ![0, 0] (shapeCast S1x1 (multiReduction .add [1] S1 (shapeCast S1x64
          (multiReduction .add [1] S64 (multiReduction .add [2] S64x128 (k0_pay5 (F := Ideal) q) 0x00000000#32
            reduces_S64x128x128_S64x128 (.inl rfl) rfl) 0x00000000#32 reduces_S64x128_S64 (.inl rfl) rfl)
          shapeCasts_S64_S1x64) 0x00000000#32 reduces_S1x64_S1 (.inl rfl) rfl) shapeCasts_S1_S1x1) inpos_S1x1_p0_0 := rfl
  rw [e]
  refine (sum_all (k0_pay5 (F := Ideal) q) reduces_S64x128x128_S64x128 reduces_S64x128_S64 shapeCasts_S64_S1x64 reduces_S1x64_S1
    shapeCasts_S1_S1x1 inpos_S1x1_p0_0 (.inl rfl) rfl).trans ?_
  exact Finset.sum_congr rfl fun b _ => Finset.sum_congr rfl fun i _ => Finset.sum_congr rfl fun j _ => maskArr_at q b i j

end Cert.KernelIdeal.TileValue

end
-- ==== Proof.KernelRun.lean ====
/-
  One grid point of the kernel's run, for any float values.

  Grid point t stages tile t of each argument (rows 64·t … 64·t + 63).  The first point leaves 0 + (the tile's two
  scalars) in the two accumulators, every later point what the point before left plus the tile's scalars.
-/
import proofs.«168749_j84688165143168_2_alg».proof.Proof.KernelPieces
import proofs.«168749_j84688165143168_2_alg».proof.Proof.KernelTile
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.RunValue

open Cert.KernelIdeal Cert.KernelIdeal.Gen Idealize.ShloMosaic.ValueIdx PairHinge

/-! ## One grid point, for any float values -/

section AnyF
variable {F : FTy → Type} [FloatOps F]
variable (m : (ℓ : Loc nD τ sig) → Buf (Elt F) ℓ)

/-- After the first point: 0 + the tile's scalars. -/
theorem first_at (c : Dev nD) (t : Fin cfg0.N) (h0 : t.val % 32 = 0) :
    outsAt0 m c t.val t.isLt
      = (addf Pieces.zero (broadcast S1x1 (k0_pay6 (iblk m c 0 t) (iblk m c 1 t))),
         addf Pieces.zero (broadcast S1x1 (k0_pay7 (iblk m c 1 t)))) := by
  rw [outsAt0_A m c t h0]
  exact Prod.ext
    (Pieces.first_hinge c (grid0.coords t) (ms0_0 t) (hs0_0 t) (ms0_1 t) (hs0_1 t) (ms0_2 t) (hs0_2 t) (ms0_3 t) (hs0_3 t) ((hcond0_0 t).mpr h0) (iblk m c 0 t) (iblk m c 1 t))
    (Pieces.first_count c (grid0.coords t) (ms0_0 t) (hs0_0 t) (ms0_1 t) (hs0_1 t) (ms0_2 t) (hs0_2 t) (ms0_3 t) (hs0_3 t) ((hcond0_0 t).mpr h0) (iblk m c 0 t) (iblk m c 1 t))

/-- After a later point: what the point before left, plus the tile's scalars. -/
theorem later_at (c : Dev nD) (t : Fin cfg0.N) (h0 : ¬t.val % 32 = 0) :
    outsAt0 m c t.val t.isLt
      = (addf (outsAt0 m c (t.val - 1) (Nat.lt_of_le_of_lt (Nat.sub_le _ _) t.isLt)).1
            (broadcast S1x1 (k0_pay6 (iblk m c 0 t) (iblk m c 1 t))),
         addf (outsAt0 m c (t.val - 1) (Nat.lt_of_le_of_lt (Nat.sub_le _ _) t.isLt)).2
            (broadcast S1x1 (k0_pay7 (iblk m c 1 t)))) := by
  rw [outsAt0_B m c t h0]
  exact Prod.ext
    (Pieces.later_hinge c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1
      (outsAt0 m c (t.val - 1) (Nat.lt_of_le_of_lt (Nat.sub_le _ _) t.isLt)).2)
    (Pieces.later_count c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1
      (outsAt0 m c (t.val - 1) (Nat.lt_of_le_of_lt (Nat.sub_le _ _) t.isLt)).2)

/-- Point t's block index in each argument: block row t, block column 0. -/
theorem blockIdx : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- A grid point as a tile number. -/
def tileNo (t : Fin cfg0.N) : Fin 32 := ⟨t.val, lt_of_lt_of_eq t.isLt N_0⟩

/-- The scores block point t stages is tile t of the scores array. -/
theorem scoresBlock (c : Dev nD) (t : Fin cfg0.N) :
    (iblk m c 0 t : Vec F S64x128 .f32) = tileOf (m ((c.tc : Thread nD τ).loc main_arg0)) (tileNo t) := by
  funext y
  unfold iblk tileOf
  rw [View.read_apply]
  show m ((c.tc : Thread nD τ).loc main_arg0) _ = m ((c.tc : Thread nD τ).loc main_arg0) _
  congr 1
  funext a
  apply Fin.ext
  match a with
  | ⟨0, _⟩ => show win0_0.index t 0 * 64 + 1 * (y 0).val = 64 * t.val + (y 0).val; rw [(blockIdx t).1]; omega
  | ⟨1, _⟩ => show win0_0.index t 1 * 128 + 1 * (y 1).val = (y 1).val; rw [(blockIdx t).2.1]; omega

/-- The relevance block point t stages is tile t of the relevance array. -/
theorem relsBlock (c : Dev nD) (t : Fin cfg0.N) :
    (iblk m c 1 t : Vec F S64x128 .i32) = tileOf (m ((c.tc : Thread nD τ).loc main_arg1)) (tileNo t) := by
  funext y
  unfold iblk tileOf
  rw [View.read_apply]
  show m ((c.tc : Thread nD τ).loc main_arg1) _ = m ((c.tc : Thread nD τ).loc main_arg1) _
  congr 1
  funext a
  apply Fin.ext
  match a with
  | ⟨0, _⟩ => show win0_1.index t 0 * 64 + 1 * (y 0).val = 64 * t.val + (y 0).val; rw [(blockIdx t).2.2.1]; omega
  | ⟨1, _⟩ => show win0_1.index t 1 * 128 + 1 * (y 1).val = (y 1).val; rw [(blockIdx t).2.2.2]; omega

end AnyF

end Cert.KernelIdeal.RunValue

end
-- ==== Proof.KernelAccum.lean ====
/-
  The accumulation over the grid, at the extended reals.

  The scalars point t adds are tile t's hinge sum and pair count (the blocks it stages are tile t of the two
  arguments).  So after point n the two accumulators hold the sums over tiles 0 … n: the first point adds its
  scalars to the zero block, and 0 + a = a; each later point adds its scalars to what the point before left.
-/
import proofs.«168749_j84688165143168_2_alg».proof.Proof.KernelRun

noncomputable section

open scoped BigOperators
open Idealize.ShloMosaic Idealize.ShloMosaic.TcCoe Idealize.SL.Sem
open Idealize.ShloMosaic.Pipeline (Dat)

namespace Cert.KernelIdeal.RunValue

open Cert.KernelIdeal Cert.KernelIdeal.Gen Idealize.ShloMosaic.ValueIdx PairHinge

variable (m : (ℓ : Loc nD τ sig) → Buf (Elt Ideal) ℓ)

/-- The two argument arrays on core c. -/
abbrev scores (c : Dev nD) : S2048x128.Idx → EReal := m ((c.tc : Thread nD τ).loc main_arg0)
abbrev rels (c : Dev nD) : S2048x128.Idx → BitVec 32 := m ((c.tc : Thread nD τ).loc main_arg1)

/-- The scalar point t adds to the first accumulator is tile t's hinge sum. -/
theorem hingeScalar_at (c : Dev nD) (t : Fin cfg0.N) :
    k0_pay6 (F := Ideal) (iblk m c 0 t) (iblk m c 1 t) = tileHinge (scores m c) (rels m c) (tileNo t) :=
  (TileValue.hingeScalar_eq (iblk m c 0 t) (iblk m c 1 t)).trans
    ((congrArg₂ blockHinge (scoresBlock m c t) (relsBlock m c t)).trans (blockHinge_tileOf _ _ _))

/-- The scalar it adds to the second is tile t's pair count. -/
theorem countScalar_at (c : Dev nD) (t : Fin cfg0.N) :
    k0_pay7 (F := Ideal) (iblk m c 1 t) = tileCount (rels m c) (tileNo t) :=
  (TileValue.countScalar_eq (iblk m c 1 t)).trans
    ((congrArg blockCount (relsBlock m c t)).trans (blockCount_tileOf _ _))

/-- A scalar spread over the 1×1 block and added to a constant block. -/
theorem const_add (a b : EReal) :
    addf ((fun _ => a) : FVec Ideal S1x1 .f32) (broadcast S1x1 b : FVec Ideal S1x1 .f32) = ((fun _ => a + b) : FVec Ideal S1x1 .f32) := rfl

/-- The zero block is the constant 0. -/
theorem zero_block : (Pieces.zero : Vec Ideal S1x1 .f32) = fun _ => (0 : EReal) :=
  funext fun _ => Ideal.ofBits_zero_f32

/-- The two accumulators after point n, as constant 1×1 blocks. -/
def sumsUpTo (c : Dev nD) (n : ℕ) : Vec Ideal S1x1 .f32 × Vec Ideal S1x1 .f32 :=
  (fun _ => upTo (tileHinge (scores m c) (rels m c)) n, fun _ => upTo (tileCount (rels m c)) n)

theorem sumsUpTo_zero (c : Dev nD) (t : Fin cfg0.N) (ht : t.val = 0) :
    ((fun _ => (0 : EReal) + tileHinge (scores m c) (rels m c) (tileNo t) : Vec Ideal S1x1 .f32),
     (fun _ => (0 : EReal) + tileCount (rels m c) (tileNo t) : Vec Ideal S1x1 .f32)) = sumsUpTo m c 0 := by
  have e : tileNo t = (0 : Fin 32) := Fin.ext ht
  unfold sumsUpTo
  rw [e, zero_add, zero_add, upTo_zero, upTo_zero]

theorem sumsUpTo_succ (c : Dev nD) (n : ℕ) (t : Fin cfg0.N) (ht : t.val = n + 1) :
    ((fun _ => upTo (tileHinge (scores m c) (rels m c)) n + tileHinge (scores m c) (rels m c) (tileNo t) : Vec Ideal S1x1 .f32),
     (fun _ => upTo (tileCount (rels m c)) n + tileCount (rels m c) (tileNo t) : Vec Ideal S1x1 .f32)) = sumsUpTo m c (n + 1) := by
  have h32 : n + 1 < 32 := by have := lt_of_lt_of_eq t.isLt N_0; omega
  have e : tileNo t = (⟨n + 1, h32⟩ : Fin 32) := Fin.ext ht
  unfold sumsUpTo
  rw [e, upTo_succ _ n h32, upTo_succ _ n h32]

/-- After point n the accumulators hold the hinge sum and the pair count of tiles 0 … n. -/
theorem outsAt_eq (c : Dev nD) : ∀ (n : ℕ) (h : n < cfg0.N), outsAt0 m c n h = sumsUpTo m c n
  | 0, h => by
    refine (first_at m c ⟨0, h⟩ rfl).trans ?_
    rw [hingeScalar_at m c ⟨0, h⟩, countScalar_at m c ⟨0, h⟩, zero_block, const_add, const_add]
    exact sumsUpTo_zero m c ⟨0, h⟩ rfl
  | n + 1, h => by
    have hN : cfg0.N = 32 := N_0
    have hB : ¬(⟨n + 1, h⟩ : Fin cfg0.N).val % 32 = 0 := by dsimp only; omega
    have ih := outsAt_eq c n (Nat.lt_of_succ_lt h)
    have step := later_at m c ⟨n + 1, h⟩ hB
    rw [hingeScalar_at m c ⟨n + 1, h⟩, countScalar_at m c ⟨n + 1, h⟩] at step
    refine step.trans ?_
    change (addf (F := Ideal) (outsAt0 m c n (Nat.lt_of_succ_lt h)).1 _,
      addf (F := Ideal) (outsAt0 m c n (Nat.lt_of_succ_lt h)).2 _) = _
    rw [ih]
    unfold sumsUpTo
    rw [const_add, const_add]
    exact sumsUpTo_succ m c n ⟨n + 1, h⟩ rfl

end Cert.KernelIdeal.RunValue

end
-- ==== Proof.KernelFinal.lean ====
/-
  The kernel's two 1×1 result arrays after the region.

  Each accumulator is written back once, after the last grid point, when it holds the sum over all 32 tiles — the
  total over all 2048 rows — and its one block, at block index (0, 0), is the whole 1×1 array.
-/
import proofs.«168749_j84688165143168_2_alg».proof.Proof.KernelAccum

noncomputable section

open scoped BigOperators
open Idealize.ShloMosaic Idealize.ShloMosaic.TcCoe Idealize.SL.Sem
open Idealize.ShloMosaic.Pipeline (Dat)

namespace Cert.KernelIdeal.RunValue

open Cert.KernelIdeal Cert.KernelIdeal.Gen Idealize.ShloMosaic.ValueIdx PairHinge

variable (m : (ℓ : Loc nD τ sig) → Buf (Elt Ideal) ℓ)

/-- The last grid point, the only one after which the accumulators are written back. -/
def lastPoint : Fin cfg0.N := ⟨31, by rw [show cfg0.N = 32 from N_0]; decide⟩

/-- At the last point each result window's block starts at row 0 and is one row high … -/
theorem lastBlock : win0_2.index lastPoint 0 * win0_2.size 0 = 0 ∧ win0_2.xsize (grid0.coords lastPoint) 0 = 1
    ∧ win0_3.index lastPoint 0 * win0_3.size 0 = 0 ∧ win0_3.xsize (grid0.coords lastPoint) 0 = 1 := by decide +kernel
/-- … and starts at column 0 and is one column wide. -/
theorem lastBlock1 : win0_2.index lastPoint 1 * win0_2.size 1 = 0 ∧ win0_2.xsize (grid0.coords lastPoint) 1 = 1
    ∧ win0_3.index lastPoint 1 * win0_3.size 1 = 0 ∧ win0_3.xsize (grid0.coords lastPoint) 1 = 1 := by decide +kernel

/-- The hinge total and the pair count as contents of the 1×1 result arrays. -/
abbrev hingeArr (c : Dev nD) : Buf (Elt Ideal) ((c.tc : Thread nD τ).loc main_v0_0) := fun _ => hingeTotal (scores m c) (rels m c)
abbrev countArr (c : Dev nD) : Buf (Elt Ideal) ((c.tc : Thread nD τ).loc main_v0_1) := fun _ => countTotal (rels m c)

/-- After the last point the first accumulator holds the hinge total. -/
theorem lastHinge (c : Dev nD) (t : Fin cfg0.N) (h31 : t.val = 31) :
    (dats m 0 c).after 2 t = fun _ => hingeTotal (scores m c) (rels m c) := by
  rw [after0_2, outsAt_eq m c t.val t.isLt, h31]
  show (fun _ => upTo (tileHinge (scores m c) (rels m c)) 31) = _
  rw [upTo_last, sum_tileHinge]
  generalize hingeTotal (scores m c) (rels m c) = v
  rfl

/-- And the second the pair count. -/
theorem lastCount (c : Dev nD) (t : Fin cfg0.N) (h31 : t.val = 31) :
    (dats m 0 c).after 3 t = fun _ => countTotal (rels m c) := by
  rw [after0_3, outsAt_eq m c t.val t.isLt, h31]
  show (fun _ => upTo (tileCount (rels m c)) 31) = _
  rw [upTo_last, sum_tileCount]
  generalize countTotal (rels m c) = v
  rfl

/-- Writing back an accumulator that holds the constant v writes the block of the constant array v. -/
theorem flushed_const_hinge (c : Dev nD) (t : Fin cfg0.N) (v : EReal)
    (hv : (dats m 0 c).after 2 t = fun _ => v) (G : Buf (Elt Ideal) ((c.tc : Thread nD τ).loc main_v0_0)) (hG : G = fun _ => v) :
    (dats m 0 c).flushed 2 t = ((cfg0.win 2).blk t).view.read (Elt Ideal) G := by
  subst hG
  show (cfg0.win 2).cut (grid0.coords t) ((dats m 0 c).after 2 t) = _
  rw [hv]
  funext y
  rw [View.read_apply]
  exact (cast_eq _ _).symm

theorem flushed_const_count (c : Dev nD) (t : Fin cfg0.N) (v : EReal)
    (hv : (dats m 0 c).after 3 t = fun _ => v) (G : Buf (Elt Ideal) ((c.tc : Thread nD τ).loc main_v0_1)) (hG : G = fun _ => v) :
    (dats m 0 c).flushed 3 t = ((cfg0.win 3).blk t).view.read (Elt Ideal) G := by
  subst hG
  show (cfg0.win 3).cut (grid0.coords t) ((dats m 0 c).after 3 t) = _
  rw [hv]
  funext y
  rw [View.read_apply]
  exact (cast_eq _ _).symm

/-- What is written back to the first result array is the hinge total. -/
theorem flushedHinge (c : Dev nD) (t : Fin cfg0.N) (hf : (cfg0.win 2).flush t = true) :
    (dats m 0 c).flushed 2 t = ((cfg0.win 2).blk t).view.read (Elt Ideal) (hingeArr m c) := by
  have hN : cfg0.N = 32 := N_0
  have h31 : t.val = 31 := by have := (flush0_2 t).mp hf; have := t.isLt; omega
  exact flushed_const_hinge m c t _ (lastHinge m c t h31) (hingeArr m c) rfl

/-- What is written back to the second is the pair count. -/
theorem flushedCount (c : Dev nD) (t : Fin cfg0.N) (hf : (cfg0.win 3).flush t = true) :
    (dats m 0 c).flushed 3 t = ((cfg0.win 3).blk t).view.read (Elt Ideal) (countArr m c) := by
  have hN : cfg0.N = 32 := N_0
  have h31 : t.val = 31 := by have := (flush0_3 t).mp hf; have := t.isLt; omega
  exact flushed_const_count m c t _ (lastCount m c t h31) (countArr m c) rfl

/-- The one block of the first result array, written back after the last point, is the whole array. -/
theorem finalHinge (c : Dev nD) : (dats m 0 c).arrAt 2 cfg0.N = hingeArr m c :=
  (dats m 0 c).arrAt_eq_of_cover 2 (hingeArr m c) (flushedHinge m c) fun i =>
    ⟨lastPoint, (flush0_2 lastPoint).mpr rfl, by
      show i ∈ ((View.whole main_v0_0).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ => show win0_2.index lastPoint 0 * win0_2.size 0 ≤ (i 0 : Nat) ∧ (i 0 : Nat) < win0_2.index lastPoint 0 * win0_2.size 0 + win0_2.xsize (grid0.coords lastPoint) 0
                  rw [(lastBlock).1, (lastBlock).2.1]; omega
      | ⟨1, _⟩ => show win0_2.index lastPoint 1 * win0_2.size 1 ≤ (i 1 : Nat) ∧ (i 1 : Nat) < win0_2.index lastPoint 1 * win0_2.size 1 + win0_2.xsize (grid0.coords lastPoint) 1
                  rw [(lastBlock1).1, (lastBlock1).2.1]; omega⟩

/-- Likewise the second. -/
theorem finalCount (c : Dev nD) : (dats m 0 c).arrAt 3 cfg0.N = countArr m c :=
  (dats m 0 c).arrAt_eq_of_cover 3 (countArr m c) (flushedCount m c) fun i =>
    ⟨lastPoint, (flush0_3 lastPoint).mpr rfl, by
      show i ∈ ((View.whole main_v0_1).slice (win0_3.rect lastPoint)).set
      rw [View.set_slice_whole, Rect.mem_set_unit]
      intro a
      have h0 : (i 0 : Nat) < 1 := (i 0).isLt
      have h1 : (i 1 : Nat) < 1 := (i 1).isLt
      match a with
      | ⟨0, _⟩ => show win0_3.index lastPoint 0 * win0_3.size 0 ≤ (i 0 : Nat) ∧ (i 0 : Nat) < win0_3.index lastPoint 0 * win0_3.size 0 + win0_3.xsize (grid0.coords lastPoint) 0
                  rw [(lastBlock).2.2.1, (lastBlock).2.2.2]; omega
      | ⟨1, _⟩ => show win0_3.index lastPoint 1 * win0_3.size 1 ≤ (i 1 : Nat) ∧ (i 1 : Nat) < win0_3.index lastPoint 1 * win0_3.size 1 + win0_3.xsize (grid0.coords lastPoint) 1
                  rw [(lastBlock1).2.2.1, (lastBlock1).2.2.2]; omega⟩

end Cert.KernelIdeal.RunValue

end
-- ==== Proof.KernelValue.lean ====
/-
  The kernel's result.

  After the region the host reads each 1×1 result array as a scalar, adds ε to the pair count and divides the
  hinge total by it: the loss of the two arguments.  The arguments themselves end unchanged.
-/
import proofs.«168749_j84688165143168_2_alg».proof.Proof.KernelFinal
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.RunValue

open Cert.KernelIdeal Cert.KernelIdeal.Gen Idealize.ShloMosaic.ValueIdx PairHinge

variable (m : (ℓ : Loc nD τ sig) → Buf (Elt Ideal) ℓ)

/-- The host operations after the region, from ANY buffer contents in which the two 1×1 result arrays hold the
    constants H and C: the result buffer ends at H / (C + ε). -/
theorem tail_of (W : Valuation τ sig (Elt Ideal)) (H C : EReal)
    (h2 : W (Proc.devRef .tc main_v0_0) = fun _ => H) (h3 : W (Proc.devRef .tc main_v0_1) = fun _ => C) :
    StableHlo.after hostOps1 W (Proc.devRef .tc main_v4) = fun _ => Ideal.div H (C + Ideal.ofBits .f32 0x358637BD#32) := by
  after_results
  rw [h2, h3]
  funext i
  rfl

/-- The region leaves the hinge total in the first result array … -/
theorem arrHinge (c : Dev nD) :
    Pipeline.withArrays spec0 c (V0 m c) (fun w => (dats m 0 c).arrAt w cfg0.N) (Proc.devRef .tc (Pipeline.arrRef spec0 2))
      = fun _ => hingeTotal (scores m c) (rels m c) :=
  (Pipeline.withArrays_arr spec0 launch0.win.arr_inj c (V0 m c) (fun w => (dats m 0 c).arrAt w cfg0.N) 2).trans (finalHinge m c)

/-- … and the pair count in the second. -/
theorem arrCount (c : Dev nD) :
    Pipeline.withArrays spec0 c (V0 m c) (fun w => (dats m 0 c).arrAt w cfg0.N) (Proc.devRef .tc (Pipeline.arrRef spec0 3))
      = fun _ => countTotal (rels m c) :=
  (Pipeline.withArrays_arr spec0 launch0.win.arr_inj c (V0 m c) (fun w => (dats m 0 c).arrAt w cfg0.N) 3).trans (finalCount m c)

/-- What the host operations after the region leave in the result buffer. -/
theorem tail_eq (c : Dev nD) :
    Pipeline.afterTail₀ cfgs (dats m) 0 (V0 m) [hostOps1] c main_v4 = loss (scores m c) (rels m c) :=
  tail_of (Pipeline.withArrays spec0 c (V0 m c) (fun w => (dats m 0 c).arrAt w cfg0.N))
    (hingeTotal (scores m c) (rels m c)) (countTotal (rels m c)) (arrHinge m c) (arrCount m c)

/-- The run, read: the result at the loss of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = loss (scores m c) (rels m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.RunValue

end
-- ==== Proof.lean ====
/-
  A pairwise hinge loss over relevant/irrelevant document pairs: the kernel against its jnp reference, over the
  extended reals.

  For scores s[2048,128] and relevances r[2048,128] both programs compute

      (Σ_B Σ_i Σ_j max(1/2 − (s[B,i] − s[B,j]), 0) · [r[B,i] = 1]·[r[B,j] = 0]) / (Σ_B Σ_i Σ_j [r[B,i] = 1]·[r[B,j] = 0] + ε).

  The reference forms the two [2048,128,128] arrays of all pairs, the mask as the conjunction of two comparison
  bits, sums each over all three axes and divides.  The kernel walks 32 tiles of 64 rows; per tile it forms the
  same two arrays for the tile's rows, the mask as the product of two 0/1 factors, sums each over the pair axes
  and the rows, and adds the two scalars into two 1×1 accumulators that start at 0 and are written back once after
  the last tile; the host then adds ε and divides.  The two agree because a 0/1 product is the conjunction read as
  a number, and because + on the extended reals is commutative and associative with unit 0: the sum over 2048
  rows is the sum over the tiles of the sums over a tile's rows, however it is grouped and wherever a partial sum
  is started from 0.  No input needs to be finite for that, so the precondition is never opened.

  The three frames: the kernels' are their generated frame theorems; the reference, a host program, is its run with
  the result forgotten.  The kernel's idealization rewrote no operation, so there is nothing to preserve.
-/
import proofs.«168749_j84688165143168_2_alg».proof.Defs
import proofs.«168749_j84688165143168_2_alg».proof.Proof.Gen.Kernel
import proofs.«168749_j84688165143168_2_alg».proof.Proof.Gen.Kernel.Skeleton
import proofs.«168749_j84688165143168_2_alg».proof.Proof.Gen.Kernel.Launch
import proofs.«168749_j84688165143168_2_alg».proof.Proof.Gen.Kernel.Points
import proofs.«168749_j84688165143168_2_alg».proof.Proof.Gen.Kernel.Frame
import proofs.«168749_j84688165143168_2_alg».proof.Proof.Gen.KernelIdeal
import proofs.«168749_j84688165143168_2_alg».proof.Proof.Gen.KernelIdeal.Skeleton
import proofs.«168749_j84688165143168_2_alg».proof.Proof.Gen.KernelIdeal.Launch
import proofs.«168749_j84688165143168_2_alg».proof.Proof.Gen.KernelIdeal.Points
import proofs.«168749_j84688165143168_2_alg».proof.Proof.Gen.KernelIdeal.Frame
import proofs.«168749_j84688165143168_2_alg».proof.Proof.Gen.ReferenceIdeal
import proofs.«168749_j84688165143168_2_alg».proof.Proof.Gen.Pre_finite_inputs
import proofs.«168749_j84688165143168_2_alg».proof.Proof.Gen.ReferenceIdeal.Run
import proofs.«168749_j84688165143168_2_alg».proof.Proof.Gen.ReferenceIdeal.Read
import proofs.«168749_j84688165143168_2_alg».proof.Proof.RefLoss
import proofs.«168749_j84688165143168_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the loss of the arguments: the kernel of its own, the reference of arguments that agree
    with them. -/
theorem algebraic : Cert.algebraic_KernelIdeal_ReferenceIdeal := by
  intro m ρ m' ρ' _ hagree
  refine ⟨fun c => PairHinge.loss (Cert.KernelIdeal.RunValue.scores m c) (Cert.KernelIdeal.RunValue.rels m c),
    Cert.KernelIdeal.RunValue.run m ρ, ?_⟩
  refine (θ_run Cert.ReferenceIdeal.defs _ _).mono (fun _ h c => ⟨?_, (h c).2⟩)
    (Cert.ReferenceIdeal.Value.run (F := Ideal) m' ρ')
  exact (h c).1.trans ((Cert.ReferenceIdeal.Read.val_main_v23_eq _ _).trans
    ((Cert.ReferenceIdeal.RefValue.result_eq _ _).trans (congrArg₂ PairHinge.loss (hagree c).1 (hagree c).2)))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
